-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x2048 : Shape := ⟨3, ![4, 8192, 2048]⟩
abbrev S2048 : Shape := ⟨1, ![2048]⟩
abbrev S2048x2048 : Shape := ⟨2, ![2048, 2048]⟩
abbrev S_ : Shape := ⟨0, ![]⟩

class Facts : Prop where
  bcast_S_S4x8192x2048 : S_.BroadcastsInDim S4x8192x2048 (![] : Fin 0 → Fin S4x8192x2048.rank)
  reducesTo_S4x8192x2048_S_d0_1_2 : S4x8192x2048.ReducesTo [0, 1, 2] S_
  h_S_ : 0 < S_.numel
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S4x8192x2048 .f32) (main_arg1 : FVec F S2048 .f32) (main_arg2 : FVec F S2048x2048 .f32) : IVec S_ 1 :=
  let main_v0 : FVec F S4x8192x2048 .f32 := Host.absf main_arg0
  let main_cst : FVec F S_ .f32 := constant S_ .f32 0x7F800000#32
  let main_v1 : FVec F S4x8192x2048 .f32 := broadcastInDim S4x8192x2048 ![] bcast_S_S4x8192x2048 main_cst
  let main_v2 : IVec S4x8192x2048 1 := cmpf .olt main_v0 main_v1
  let main_c : IVec S_ 1 := constantI S_ 1 1#1
  let main_v3 : IVec S_ 1 := (fun x v => Host.reduce IntOp.andi x v reducesTo_S4x8192x2048_S_d0_1_2 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  main_v13
-- ==== Kernel.lean ====
abbrev S4x8192x2048 : Shape := ⟨3, ![4, 8192, 2048]⟩
abbrev S2048 : Shape := ⟨1, ![2048]⟩
abbrev S2048x2048 : Shape := ⟨2, ![2048, 2048]⟩
abbrev S_ : Shape := ⟨0, ![]⟩
abbrev S32768x2048 : Shape := ⟨2, ![32768, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 30
  | .vmem => 6
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .bf16⟩
  | .hbm, ⟨26, _⟩ => ⟨S32768x2048, .f32⟩
  | .hbm, ⟨27, _⟩ => ⟨S1x2048, .f32⟩
  | .hbm, ⟨28, _⟩ => ⟨S32768x2048, .f32⟩
  | .hbm, ⟨29, _⟩ => ⟨S4x8192x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x2048, .bf16⟩
  | .local _ .vmem, ⟨4, _⟩ => ⟨S256x2048, .f32⟩
  | .local _ .vmem, ⟨5, _⟩ => ⟨S256x2048, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_cst_4 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S2048x2048_S_d0_1 : S2048x2048.ReducesTo [0, 1] S_
  h_S_ : 0 < S_.numel
  bcast_S_S2048x2048 : S_.BroadcastsInDim S2048x2048 (![] : Fin 0 → Fin S2048x2048.rank)
  bitsLt_bf16_f32 : FTy.bits .bf16 < FTy.bits .f32
  shapeCasts_S4x8192x2048_S32768x2048 : S4x8192x2048.ShapeCasts S32768x2048
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  reduces_S256x2048_S256 : S256x2048.Reduces [1] S256
  shapeCasts_S256_S256x1 : S256.ShapeCasts S256x1
  broadcasts_S256x1_S256x2048 : S256x1.Broadcasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S32768x2048_S4x8192x2048 : S32768x2048.ShapeCasts S4x8192x2048
  dot_S256x2048_S2048x2048_S256x2048_1_1_0_0_n_n_wf : DotDims.WF S256x2048 S2048x2048 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S32768x2048.size a
  hwx0_0 : ∀ i : grid0.Coords, EltTy.bits .f32 = 32 ∨ (Rect.block (s := S32768x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S32768x2048.size a
  hwx0_3 : ∀ i : grid0.Coords, EltTy.bits .f32 = 32 ∨ (Rect.block (s := S32768x2048) S256x2048.size (cc0_transform_3 i) (hinb0_3 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf

abbrev win0_0 : Pipeline.Window sig grid0 :=
  Pipeline.Window.ofSpec (Memref.whole main_v12) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x2048 : Shape := ⟨3, ![4, 8192, 2048]⟩
abbrev S2048 : Shape := ⟨1, ![2048]⟩
abbrev S2048x2048 : Shape := ⟨2, ![2048, 2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩

abbrev nBuf : Space → Nat
  | .hbm => 69
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S2048x2048, .f32⟩
  | .hbm, ⟨3, _⟩ => ⟨S4x8192x2048, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S_, .f32⟩
  | .hbm, ⟨8, _⟩ => ⟨S4x8192x1, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S4x8192x1, .f32⟩
  | .hbm, ⟨14, _⟩ => ⟨S4x8192x2048, .f32⟩
  | .hbm, ⟨15, _⟩ => ⟨S4x8192x2048, .f32⟩
  | .hbm, ⟨16, _⟩ => ⟨S1x1x2048, .f32⟩
  | .hbm, ⟨17, _⟩ => ⟨S4x8192x2048, .f32⟩
  | .hbm, ⟨18, _⟩ => ⟨S4x8192x2048, .f32⟩
  | .hbm, ⟨19, _⟩ => ⟨S4x8192x2048, .f32⟩
  | .hbm, ⟨20, _⟩ => ⟨S_, .f32⟩
  | .hbm, ⟨21, _⟩ => ⟨S4x8192, .f32⟩
  | .hbm, ⟨22, _⟩ => ⟨S4x8192x1, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S_, .f32⟩
  | .hbm, ⟨27, _⟩ => ⟨S4x8192x1, .f32⟩
  | .hbm, ⟨28, _⟩ => ⟨S4x8192x1, .f32⟩
  | .hbm, ⟨29, _⟩ => ⟨S4x8192x2048, .f32⟩
  | .hbm, ⟨30, _⟩ => ⟨S4x8192x2048, .f32⟩
  | .hbm, ⟨31, _⟩ => ⟨S4x8192x2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4x8192x2048, .f32⟩
  | .hbm, ⟨36, _⟩ => ⟨S4x8192x2048, .f32⟩
  | .hbm, ⟨37, _⟩ => ⟨S_, .f32⟩
  | .hbm, ⟨38, _⟩ => ⟨S4x8192x2048, .f32⟩
  | .hbm, ⟨39, _⟩ => ⟨S4x8192x2048, .f32⟩
  | .hbm, ⟨40, _⟩ => ⟨S4x8192x2048, .f32⟩
  | .hbm, ⟨41, _⟩ => ⟨S4x8192x2048, .f32⟩
  | .hbm, ⟨42, _⟩ => ⟨S4x8192x2048, .f32⟩
  | .hbm, ⟨43, _⟩ => ⟨S4x8192x2048, .f32⟩
  | .hbm, ⟨44, _⟩ => ⟨S2048x2048, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S2048x2048, .f32⟩
  | .hbm, ⟨60, _⟩ => ⟨S2048x2048, .f32⟩
  | .hbm, ⟨61, _⟩ => ⟨S_, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S4x8192x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_cst_6 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_cst_9 : Ref sig .tc := ⟨.hbm, 49, rfl⟩
abbrev main_v31 : Ref sig .tc := ⟨.hbm, 50, rfl⟩
abbrev main_cst_10 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_11 : Ref sig .tc := ⟨.hbm, 56, rfl⟩
abbrev main_cst_12 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩

abbrev nD : Nat := 1
abbrev τ : Topo := Topo.v7x

variable {F : FTy → Type} [FloatOps F]

class Facts₀ : Prop where
  reducesTo_S4x8192x2048_S4x8192_d2 : S4x8192x2048.ReducesTo [2] S4x8192
  h_S_ : 0 < S_.numel
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x2048_0_1_2 : S4x8192x1.BroadcastsInDim S4x8192x2048 (![0, 1, 2] : Fin 3 → Fin S4x8192x2048.rank)
  bcast_S2048_S1x1x2048_2 : S2048.BroadcastsInDim S1x1x2048 (![2] : Fin 1 → Fin S1x1x2048.rank)
  bcast_S1x1x2048_S4x8192x2048_0_1_2 : S1x1x2048.BroadcastsInDim S4x8192x2048 (![0, 1, 2] : Fin 3 → Fin S4x8192x2048.rank)
  bcast_S_S4x8192x2048 : S_.BroadcastsInDim S4x8192x2048 (![] : Fin 0 → Fin S4x8192x2048.rank)
  reducesTo_S2048x2048_S_d0_1 : S2048x2048.ReducesTo [0, 1] S_
  bcast_S_S2048x2048 : S_.BroadcastsInDim S2048x2048 (![] : Fin 0 → Fin S2048x2048.rank)
  dot_S4x8192x2048_S2048x2048_S4x8192x2048_2_1_01_0_n_n_wf : DotDims.WF S4x8192x2048 S2048x2048 S4x8192x2048 [2] [1] [0, 1] [0] [] []

variable [Facts₀]

def dot_S4x8192x2048_S2048x2048_S4x8192x2048_2_1_01_0_n_n : DotDims S4x8192x2048 S2048x2048 S4x8192x2048 where
  lhsContracting := [2]
  rhsContracting := [1]
  lhsNonContracting := [0, 1]
  rhsNonContracting := [0]
  lhsBatch := []
  rhsBatch := []
  wf := dot_S4x8192x2048_S2048x2048_S4x8192x2048_2_1_01_0_n_n_wf

class Facts : Prop extends Facts₀ where

variable [Facts]
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.QuantSpec.lean ====
/-
  The row quantiser of a 1.58-bit linear layer, on the extended reals, as functions of ONE row.

  A row `r` of activations is scaled by its inverse root-mean-square and a gain `g` (`normed`), its largest magnitude
  fixes one scale for the row (`scale`), each entry is rounded on that scale, cut to the eight-bit range and scaled back
  (`quant`); the layer's output at a row and an output feature is the product of the quantised row with that feature's
  row of quantised weights (`rowOut`). Float literals stay the words the programs spell; only their sign and finiteness
  are ever used.

  Two laws: a straight-through spelling `a + (b - a)` is `b` whenever `a` is a real number, and a normalised entry of a
  row of real numbers under real gains is a real number (the mean of squares plus a positive epsilon is positive, so its
  inverse square root is a real).
-/
import Idealize.ShloMosaic.PureOps.Ideal
import Idealize.ShloMosaic.PureOps.Ideal.Laws

noncomputable section

namespace Cert.BitLinear

open Idealize.ShloMosaic

variable {K N : ℕ}

/-- The inverse root-mean-square of a row: `(mean of squares + ε)^(-1/2)`, the mean taken as the sum over the word for the
    row's length. -/
def invRms (r : Fin K → EReal) : EReal :=
  Ideal.rsqrt (Ideal.div (∑ k, r k * r k) (Ideal.ofBits .f32 0x45000000#32) + Ideal.ofBits .f32 0x358637BD#32)

/-- The normalised row under the gains `g`. -/
def normed (g r : Fin K → EReal) (k : Fin K) : EReal := r k * invRms r * g k

/-- The largest magnitude of the normalised row, from `-∞`. -/
def absMax (g r : Fin K → EReal) : EReal :=
  (Finset.univ : Finset (Fin K)).fold max (Ideal.ofBits .f32 0xFF800000#32) fun k => max (normed g r k) (-normed g r k)

/-- The row's quantisation scale `127 / (largest magnitude + ε)`. -/
def scale (g r : Fin K → EReal) : EReal :=
  Ideal.div (Ideal.ofBits .f32 0x42FE0000#32) (absMax g r + Ideal.ofBits .f32 0x3727C5AC#32)

/-- The quantised row: rounded to even on the row's scale, cut to `[-128, 127]`, scaled back. -/
def quant (g r : Fin K → EReal) (k : Fin K) : EReal :=
  Ideal.div (min (Ideal.ofBits .f32 0x42FE0000#32) (max (Ideal.ofBits .f32 0xC3000000#32)
    (Ideal.liftRound Ideal.roundHalfEven (normed g r k * scale g r)))) (scale g r)

/-- The layer at one row: entry `o` is the quantised row against row `o` of the (already quantised) weights. -/
def rowOut (g : Fin K → EReal) (Wq : Fin N → Fin K → EReal) (r : Fin K → EReal) (o : Fin N) : EReal :=
  ∑ k, quant g r k * Wq o k

/-- The straight-through spelling: adding to a real number `a` the difference `b - a` gives `b`, for any extended real `b`. -/
theorem add_sub_self_of_real (a : ℝ) (b : EReal) : (a : EReal) + (b - (a : EReal)) = b := by
  induction b using EReal.rec with
  | bot => rfl
  | top => rfl
  | coe b => rw [← EReal.coe_sub, ← EReal.coe_add]; congr 1; ring

/-- The word for the row length denotes `2048`. -/
theorem ofBits_2048 : Ideal.ofBits .f32 0x45000000#32 = ((2048 : ℝ) : EReal) := by
  simp [Ideal.ofBits, Ideal.ieee, -EReal.coe_mul]; norm_num

/-- The normalisation's epsilon denotes a positive real. -/
theorem epsN_pos : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

/-- A sum of real numbers, read in the extended reals, is the real sum. -/
theorem coe_sum (f : Fin K → ℝ) : (∑ k, ((f k : ℝ) : EReal)) = ((∑ k, f k : ℝ) : EReal) := by
  induction (Finset.univ : Finset (Fin K)) using Finset.induction_on with
  | empty => simp
  | insert a s ha ih => rw [Finset.sum_insert ha, Finset.sum_insert ha, ih, EReal.coe_add]

/-- The inverse root-mean-square of a row of real numbers is a real number. -/
theorem invRms_real (r : Fin K → ℝ) : ∃ y : ℝ, invRms (fun k => (r k : EReal)) = (y : EReal) := by
  obtain ⟨e, he, hE⟩ := epsN_pos
  have hs : (∑ k, ((r k : ℝ) : EReal) * ((r k : ℝ) : EReal)) = ((∑ k, r k * r k : ℝ) : EReal) := by
    rw [← coe_sum]; exact Finset.sum_congr rfl fun k _ => (EReal.coe_mul _ _).symm
  have h0 : 0 ≤ ∑ k, r k * r k := Finset.sum_nonneg fun k _ => mul_self_nonneg _
  have hpos : 0 < (∑ k, r k * r k) * (1 / 2048) + e := by positivity
  unfold invRms
  rw [hs, ofBits_2048, Ideal.div_coe (by norm_num : (2048 : ℝ) ≠ 0), hE, ← EReal.coe_mul, ← EReal.coe_add, Ideal.rsqrt_coe,
    if_neg (not_lt.2 hpos.le), if_neg hpos.ne']
  exact ⟨_, rfl⟩

/-- So a normalised entry of a row of real numbers under real gains is a real number. -/
theorem normed_real (g r : Fin K → ℝ) (k : Fin K) :
    ∃ y : ℝ, normed (fun k => (g k : EReal)) (fun k => (r k : EReal)) k = (y : EReal) := by
  obtain ⟨y, hy⟩ := invRms_real r
  refine ⟨r k * y * g k, ?_⟩
  unfold normed
  rw [hy, EReal.coe_mul, EReal.coe_mul]

/-- The same for a row and gains given as extended reals that are, entry by entry, real numbers. -/
theorem normed_real_of (g r : Fin K → EReal) (hg : ∀ k, ∃ y : ℝ, g k = (y : EReal)) (hr : ∀ k, ∃ y : ℝ, r k = (y : EReal)) (k : Fin K) :
    ∃ y : ℝ, normed g r k = (y : EReal) := by
  choose g' hg' using hg
  choose r' hr' using hr
  obtain rfl : g = fun k => (g' k : EReal) := funext hg'
  obtain rfl : r = fun k => (r' k : EReal) := funext hr'
  exact normed_real g' r' k

end Cert.BitLinear

end
-- ==== Proof.LibRowQuant.lean ====
/-
  General lemmas: the row quantiser of a 1.58-bit linear layer (QuantSpec) on a BLOCK of rows `[M, K]` with its gains
  held as one row `[1, K]`, as whole-block functions — the inverse root-mean-square of each row as a column, the
  normalised block, each row's scale as a column, the quantised block — and the spelling a vector unit gives each: a
  lane sum or a lane maximum recast as a column, a column or a one-row array broadcast across the block, splat constants.
  Every entry of each depends on ONE row of the block only. None mentions a program.
-/
import proofs.«164483_j84112639525120_1_alg».proof.Proof.LibIndex
import proofs.«164483_j84112639525120_1_alg».proof.Proof.QuantSpec

noncomputable section

namespace Cert.RowQuantLib

open Idealize.ShloMosaic Idealize.ShloMosaic.ValueIdx Cert.LayoutLib Cert.BitLinear

variable {M K : ℕ}

/-- Row `p` of a block. -/
def rowOf (X : (⟨2, ![M, K]⟩ : Shape).Idx → EReal) (p : Fin M) : Fin K → EReal := fun k => X (ix2 p k)

/-- The gains held as one row. -/
def gainOf (v : (⟨2, ![1, K]⟩ : Shape).Idx → EReal) : Fin K → EReal := fun k => v (ix2 (0 : Fin 1) k)

/-- The rows' inverse root-mean-squares, as a column. -/
def rmsCol (X : (⟨2, ![M, K]⟩ : Shape).Idx → EReal) : (⟨2, ![M, 1]⟩ : Shape).Idx → EReal := fun i => invRms (rowOf X (i 0))

/-- The normalised block. -/
def normedBlk (X : (⟨2, ![M, K]⟩ : Shape).Idx → EReal) (v : (⟨2, ![1, K]⟩ : Shape).Idx → EReal) :
    (⟨2, ![M, K]⟩ : Shape).Idx → EReal := fun i => normed (gainOf v) (rowOf X (i 0)) (i 1)

/-- The rows' quantisation scales, as a column. -/
def scaleCol (X : (⟨2, ![M, K]⟩ : Shape).Idx → EReal) (v : (⟨2, ![1, K]⟩ : Shape).Idx → EReal) :
    (⟨2, ![M, 1]⟩ : Shape).Idx → EReal := fun i => scale (gainOf v) (rowOf X (i 0))

/-- The quantised block. -/
def quantBlk (X : (⟨2, ![M, K]⟩ : Shape).Idx → EReal) (v : (⟨2, ![1, K]⟩ : Shape).Idx → EReal) :
    (⟨2, ![M, K]⟩ : Shape).Idx → EReal := fun i => quant (gainOf v) (rowOf X (i 0)) (i 1)

theorem quantBlk_apply (X : (⟨2, ![M, K]⟩ : Shape).Idx → EReal) (v : (⟨2, ![1, K]⟩ : Shape).Idx → EReal) (p : Fin M) (k : Fin K) :
    quantBlk X v (ix2 p k) = quant (gainOf v) (rowOf X p) k := rfl

/-- The lane sum of the squares, recast as a column, over the row length, plus epsilon, under the inverse square root:
    the column of inverse root-mean-squares. -/
theorem unit_rmsCol (X : FVec Ideal ⟨2, ![M, K]⟩ .f32)
    (hr : (⟨2, ![M, K]⟩ : Shape).Reduces [(1 : Fin 2)] ⟨1, ![M]⟩) (hφ : FKind.Formats FTy.f32)
    (hacc : (0x00000000#32 : BitVec FTy.f32.bits) = FKind.add.neutral .f32 hφ)
    (hc : (⟨1, ![M]⟩ : Shape).ShapeCasts ⟨2, ![M, 1]⟩) :
    rsqrt (addf (divf (shapeCast ⟨2, ![M, 1]⟩ (multiReduction (F := Ideal) .add [1] ⟨1, ![M]⟩ (mulf X X) 0x00000000#32 hr hφ hacc) hc)
        (broadcast ⟨2, ![M, 1]⟩ (Scalar.ofBits (F := Ideal) .f32 0x45000000#32)))
      (broadcast ⟨2, ![M, 1]⟩ (Scalar.ofBits (F := Ideal) .f32 0x358637BD#32))) = rmsCol X := by
  funext i
  obtain ⟨p, u, rfl⟩ : ∃ (p : Fin M) (u : Fin 1), i = ix2 p u := ⟨i 0, i 1, eq_ix2 i⟩
  show Ideal.rsqrt (Ideal.div (shapeCast ⟨2, ![M, 1]⟩ (multiReduction (F := Ideal) .add [1] ⟨1, ![M]⟩ (mulf X X) 0x00000000#32 hr hφ hacc) hc (ix2 p u))
      (Ideal.ofBits .f32 0x45000000#32) + Ideal.ofBits .f32 0x358637BD#32) = _
  rw [shapeCast_col_apply, Ideal.multiReduction_add_single]
  refine congrArg (fun s => Ideal.rsqrt (Ideal.div s _ + _)) (Finset.sum_congr rfl fun k _ => ?_)
  rw [lift_row hr p k]
  rfl

/-- The block times the broadcast column of inverse root-mean-squares times the gains broadcast down the rows: the
    normalised block. -/
theorem unit_normedBlk (X : FVec Ideal ⟨2, ![M, K]⟩ .f32) (v : FVec Ideal ⟨2, ![1, K]⟩ .f32)
    (hb1 : (⟨2, ![M, 1]⟩ : Shape).Broadcasts ⟨2, ![M, K]⟩) (hb2 : (⟨2, ![1, K]⟩ : Shape).Broadcasts ⟨2, ![M, K]⟩) :
    mulf (mulf X (broadcastTo ⟨2, ![M, K]⟩ (rmsCol X) hb1)) (broadcastTo ⟨2, ![M, K]⟩ v hb2) = normedBlk X v := by
  funext i
  obtain ⟨p, k, rfl⟩ : ∃ (p : Fin M) (k : Fin K), i = ix2 p k := ⟨i 0, i 1, eq_ix2 i⟩
  show X (ix2 p k) * broadcastTo ⟨2, ![M, K]⟩ (rmsCol X) hb1 (ix2 p k) * broadcastTo ⟨2, ![M, K]⟩ v hb2 (ix2 p k) = _
  rw [broadcastTo_col_apply, broadcastTo_1b_ab_apply]
  rfl

/-- `127` over the lane maximum of the magnitudes, recast as a column, plus epsilon: the column of scales. -/
theorem unit_scaleCol (X : FVec Ideal ⟨2, ![M, K]⟩ .f32) (v : FVec Ideal ⟨2, ![1, K]⟩ .f32)
    (hr : (⟨2, ![M, K]⟩ : Shape).Reduces [(1 : Fin 2)] ⟨1, ![M]⟩) (hφ : FKind.Formats FTy.f32)
    (hacc : (0xFF800000#32 : BitVec FTy.f32.bits) = FKind.maximumf.neutral .f32 hφ)
    (hc : (⟨1, ![M]⟩ : Shape).ShapeCasts ⟨2, ![M, 1]⟩) :
    divf (broadcast ⟨2, ![M, 1]⟩ (Scalar.ofBits (F := Ideal) .f32 0x42FE0000#32))
      (addf (shapeCast ⟨2, ![M, 1]⟩ (multiReduction (F := Ideal) .maximumf [1] ⟨1, ![M]⟩ (absf (normedBlk X v : FVec Ideal ⟨2, ![M, K]⟩ .f32)) 0xFF800000#32 hr hφ hacc) hc)
        (broadcast ⟨2, ![M, 1]⟩ (Scalar.ofBits (F := Ideal) .f32 0x3727C5AC#32))) = scaleCol X v := by
  funext i
  obtain ⟨p, u, rfl⟩ : ∃ (p : Fin M) (u : Fin 1), i = ix2 p u := ⟨i 0, i 1, eq_ix2 i⟩
  show Ideal.div (Ideal.ofBits .f32 0x42FE0000#32)
      (shapeCast ⟨2, ![M, 1]⟩ (multiReduction (F := Ideal) .maximumf [1] ⟨1, ![M]⟩ (absf (normedBlk X v : FVec Ideal ⟨2, ![M, K]⟩ .f32)) 0xFF800000#32 hr hφ hacc) hc (ix2 p u)
        + Ideal.ofBits .f32 0x3727C5AC#32) = _
  rw [shapeCast_col_apply, Ideal.multiReduction_maximumf_single]
  have e : ((absf (normedBlk X v : FVec Ideal ⟨2, ![M, K]⟩ .f32) : FVec Ideal ⟨2, ![M, K]⟩ .f32) ∘ hr.lift (ix1 p))
      = fun k => max (normed (gainOf v) (rowOf X p) k) (-normed (gainOf v) (rowOf X p) k) := funext fun k => by
    show (absf (normedBlk X v : FVec Ideal ⟨2, ![M, K]⟩ .f32) : FVec Ideal ⟨2, ![M, K]⟩ .f32) (hr.lift (ix1 p) k) = _
    rw [lift_row hr p k]
    rfl
  rw [e]
  rfl

/-- The normalised block on its rows' scales, rounded to even, cut to `[-128, 127]` and scaled back: the quantised block. -/
theorem unit_quantBlk (X : FVec Ideal ⟨2, ![M, K]⟩ .f32) (v : FVec Ideal ⟨2, ![1, K]⟩ .f32)
    (hb1 : (⟨2, ![M, 1]⟩ : Shape).Broadcasts ⟨2, ![M, K]⟩) :
    divf (minimumf (broadcast ⟨2, ![M, K]⟩ (Scalar.ofBits (F := Ideal) .f32 0x42FE0000#32))
        (maximumf (broadcast ⟨2, ![M, K]⟩ (Scalar.ofBits (F := Ideal) .f32 0xC3000000#32))
          (roundeven (mulf (normedBlk X v : FVec Ideal ⟨2, ![M, K]⟩ .f32) (broadcastTo ⟨2, ![M, K]⟩ (scaleCol X v) hb1)))))
      (broadcastTo ⟨2, ![M, K]⟩ (scaleCol X v) hb1) = quantBlk X v := by
  funext i
  obtain ⟨p, k, rfl⟩ : ∃ (p : Fin M) (k : Fin K), i = ix2 p k := ⟨i 0, i 1, eq_ix2 i⟩
  show Ideal.div (min (Ideal.ofBits .f32 0x42FE0000#32) (max (Ideal.ofBits .f32 0xC3000000#32)
      (Ideal.liftRound Ideal.roundHalfEven (normedBlk X v (ix2 p k) * broadcastTo ⟨2, ![M, K]⟩ (scaleCol X v) hb1 (ix2 p k)))))
      (broadcastTo ⟨2, ![M, K]⟩ (scaleCol X v) hb1 (ix2 p k)) = _
  rw [broadcastTo_col_apply]
  rfl

end Cert.RowQuantLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«164483_j84112639525120_1_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.LibRowBlocks.lean ====
/-
  A dense layer of a graph network on the extended reals, as whole-array functions at any number of rows: the
  product with a weight matrix after a bias row is added and the result cut at zero (`layer`), the bias alone
  (`biased`), and the product followed by a bias (`affine`). Row `p` of each depends only on row `p` of the
  array it is applied to: so a block of consecutive rows of the result is the same function of that block of rows,
  which is what lets a result computed block by block be read as one function of the whole array.
-/
import proofs.«164483_j84112639525120_1_alg».proof.Proof.LibDense

noncomputable section

namespace Cert.RowBlocks

open Idealize.ShloMosaic Idealize.ShloMosaic.ValueIdx Cert.LayoutLib Cert.DenseLib

/-- `relu (A + b) · W`: the bias `b` laid along every row of `A`, the cut at zero, then the product with `W`. -/
def layer {M K N : ℕ} (A : (⟨2, ![M, K]⟩ : Shape).Idx → EReal) (b : Fin K → EReal) (W : (⟨2, ![K, N]⟩ : Shape).Idx → EReal) :
    (⟨2, ![M, N]⟩ : Shape).Idx → EReal := mm (relu (plus A (rows b))) W

/-- `A + b`: the bias laid along every row. -/
def biased {M N : ℕ} (A : (⟨2, ![M, N]⟩ : Shape).Idx → EReal) (b : Fin N → EReal) : (⟨2, ![M, N]⟩ : Shape).Idx → EReal :=
  plus A (rows b)

/-- `P · W + b`. -/
def affine {M K N : ℕ} (P : (⟨2, ![M, K]⟩ : Shape).Idx → EReal) (W : (⟨2, ![K, N]⟩ : Shape).Idx → EReal) (b : Fin N → EReal) :
    (⟨2, ![M, N]⟩ : Shape).Idx → EReal := plus (mm P W) (rows b)

/-- An entry of a product is determined by its row of the left operand: if row `j 0` of `X'` is row `i 0` of `X`, the
    weights agree and the columns `j 1`, `i 1` are the same, the entries of the two products are equal. -/
theorem mm_eq_of_row {M M' K N : ℕ} (X' : (⟨2, ![M', K]⟩ : Shape).Idx → EReal) (W' : (⟨2, ![K, N]⟩ : Shape).Idx → EReal)
    (X : (⟨2, ![M, K]⟩ : Shape).Idx → EReal) (W : (⟨2, ![K, N]⟩ : Shape).Idx → EReal)
    (j : (⟨2, ![M', N]⟩ : Shape).Idx) (i : (⟨2, ![M, N]⟩ : Shape).Idx)
    (hw : W' = W) (hq : (j 1).val = (i 1).val) (hx : ∀ k : Fin K, X' (ix2 (n0 := M') (j 0) k) = X (ix2 (n0 := M) (i 0) k)) :
    mm X' W' j = mm X W i := by
  subst hw
  show ∑ k : Fin K, X' (ix2 (n0 := M') (j 0) k) * W' (ix2 k (n1 := N) (j 1)) = ∑ k : Fin K, X (ix2 (n0 := M) (i 0) k) * W' (ix2 k (n1 := N) (i 1))
  refine Finset.sum_congr rfl fun k _ => ?_
  have e : (ix2 k (n1 := N) (j 1)) = ix2 k (n1 := N) (i 1) := congrArg (ix2 k) (Fin.ext hq)
  rw [hx k, e]

/-- The same for a layer: the bias and the cut act entry by entry, so row `p` of `relu (A + b)` is determined by row `p` of `A`. -/
theorem layer_eq_of_row {M M' K N : ℕ} (A' : (⟨2, ![M', K]⟩ : Shape).Idx → EReal) (b' : Fin K → EReal) (W' : (⟨2, ![K, N]⟩ : Shape).Idx → EReal)
    (A : (⟨2, ![M, K]⟩ : Shape).Idx → EReal) (b : Fin K → EReal) (W : (⟨2, ![K, N]⟩ : Shape).Idx → EReal)
    (j : (⟨2, ![M', N]⟩ : Shape).Idx) (i : (⟨2, ![M, N]⟩ : Shape).Idx)
    (hb : b' = b) (hw : W' = W) (hq : (j 1).val = (i 1).val) (hx : ∀ k : Fin K, A' (ix2 (n0 := M') (j 0) k) = A (ix2 (n0 := M) (i 0) k)) :
    layer A' b' W' j = layer A b W i := by
  subst hb
  refine mm_eq_of_row _ _ _ _ j i hw hq fun k => ?_
  show max (A' (ix2 (n0 := M') (j 0) k) + b' ((ix2 (n0 := M') (j 0) k) 1)) 0 = max (A (ix2 (n0 := M) (i 0) k) + b' ((ix2 (n0 := M) (i 0) k) 1)) 0
  rw [hx k]
  rfl

/-- An entry of `A + b` is the entry of `A` plus the bias of its column. -/
theorem biased_eq_of_entry {M M' N : ℕ} (A' : (⟨2, ![M', N]⟩ : Shape).Idx → EReal) (b' : Fin N → EReal)
    (A : (⟨2, ![M, N]⟩ : Shape).Idx → EReal) (b : Fin N → EReal)
    (j : (⟨2, ![M', N]⟩ : Shape).Idx) (i : (⟨2, ![M, N]⟩ : Shape).Idx)
    (hb : b' = b) (hq : (j 1).val = (i 1).val) (hx : A' j = A i) : biased A' b' j = biased A b i := by
  subst hb
  show A' j + b' (j 1) = A i + b' (i 1)
  have e : (j 1 : Fin N) = (i 1 : Fin N) := Fin.ext hq
  rw [hx, e]

/-- A vector `[b]` recast as one row `[1, b]` reads, at `(u, c)`, the vector at `c`. -/
theorem shapeCast_vecRow_apply {α : Type} {b : ℕ} (x : (⟨1, ![b]⟩ : Shape).Idx → α) (h : (⟨1, ![b]⟩ : Shape).ShapeCasts ⟨2, ![1, b]⟩)
    (u : Fin 1) (c : Fin b) : shapeCast ⟨2, ![1, b]⟩ x h (ix2 u c) = x (ix1 c) :=
  shapeCast_apply x h _ _ (by
    have hu : u.val = 0 := by omega
    rw [Shape.rowMajor_val_two, Shape.rowMajor_val_one]
    show c.val = u.val * b + c.val
    rw [hu]; omega)

end Cert.RowBlocks

end
-- ==== Proof.LibTransposed.lean ====
/-
  General lemmas: a weight matrix stored with one row per OUTPUT feature, `[N, K]`, so that a dense layer reads
  `X · Wᵀ + b`. Such a matrix read as the `[K, N]` array `tr W` (entry `(k, q)` is `W (q, k)`) turns the product
  that contracts BOTH operands along their last axis into the plain product with `tr W`, and the host's transpose
  by `[1, 0]` is the same reading. With these the layer is the plain `affine` layer of `tr W`, whose entries depend
  on one row of `X` only. None mentions a program.
-/
import proofs.«164483_j84112639525120_1_alg».proof.Proof.LibRowBlocks

noncomputable section

namespace Cert.TransposedLib

open Idealize.ShloMosaic Idealize.ShloMosaic.ValueIdx Cert.LayoutLib Cert.DenseLib Cert.RowBlocks

/-- An `[N, K]` array read as `[K, N]`: entry `(k, q)` is entry `(q, k)` of the array. -/
def tr {N K : ℕ} {α : Type} (W : (⟨2, ![N, K]⟩ : Shape).Idx → α) : (⟨2, ![K, N]⟩ : Shape).Idx → α :=
  fun i => W (ix2 (n0 := N) (i 1) (n1 := K) (i 0))

theorem tr_apply {N K : ℕ} {α : Type} (W : (⟨2, ![N, K]⟩ : Shape).Idx → α) (k : Fin K) (q : Fin N) :
    tr W (ix2 k q) = W (ix2 q k) := rfl

/-- The `[M, K] × [N, K]` product contracting the LAST axis of both operands: its sum over the contraction index, at
    output `(p, q)`, is the sum over `k : Fin K` of the left operand at `(p, k)` times the right operand at `(q, k)`. -/
theorem dot_transposedRhs_sum {M K N : ℕ} (D : DotDims ⟨2, ![M, K]⟩ ⟨2, ![N, K]⟩ ⟨2, ![M, N]⟩)
    (hD : D = DotDims.transposedRhs M K N)
    (l : (⟨2, ![M, K]⟩ : Shape).Idx → EReal) (r : (⟨2, ![N, K]⟩ : Shape).Idx → EReal) (p : Fin M) (q : Fin N) :
    ∑ k : D.contr.Idx, l (D.lhsIdx (ix2 p q) k) * r (D.rhsIdx (ix2 p q) k) = ∑ k : Fin K, l (ix2 p k) * r (ix2 q k) := by
  subst hD
  rw [← Equiv.sum_comp (contrEquiv1 (DotDims.transposedRhs M K N) K rfl rfl).symm]
  refine Finset.sum_congr rfl fun k _ => ?_
  have e := contrEquiv1_symm_val (DotDims.transposedRhs M K N) K rfl rfl k
  have hl : (DotDims.transposedRhs M K N).lhsIdx (ix2 p q) ((contrEquiv1 (DotDims.transposedRhs M K N) K rfl rfl).symm k) = ix2 p k :=
    funext fun c => Fin.ext (by
      match c with
      | ⟨0, _⟩ => rfl
      | ⟨1, _⟩ => exact ((DotDims.transposedRhs M K N).lhsIdx_val_of_single (cl := (1 : Fin 2)) rfl _ _).trans e)
  have hr : (DotDims.transposedRhs M K N).rhsIdx (ix2 p q) ((contrEquiv1 (DotDims.transposedRhs M K N) K rfl rfl).symm k) = ix2 q k :=
    funext fun c => Fin.ext (by
      match c with
      | ⟨0, _⟩ => rfl
      | ⟨1, _⟩ => exact ((DotDims.transposedRhs M K N).rhsIdx_val_of_single (cr := (1 : Fin 2)) rfl _ _).trans e)
  rw [hl, hr]

/-- A product contracting both operands along their last axis, accumulated into the zero splat, is the plain product
    with the right operand read transposed. -/
theorem matmul_transposedRhs_eq_mm {M K N : ℕ} (D : DotDims ⟨2, ![M, K]⟩ ⟨2, ![N, K]⟩ ⟨2, ![M, N]⟩)
    (hD : D = DotDims.transposedRhs M K N) {φ₁ φ₂ : FTy} (L : FVec Ideal ⟨2, ![M, K]⟩ φ₁) (R : FVec Ideal ⟨2, ![N, K]⟩ φ₂) :
    matmul D none L R (constant ⟨2, ![M, N]⟩ .f32 0x00000000#32) = mm L (tr R) := by
  funext i
  obtain ⟨p, q, rfl⟩ : ∃ (p : Fin M) (q : Fin N), i = ix2 p q := ⟨i 0, i 1, eq_ix2 i⟩
  exact (Ideal.matmul_constant_zero_apply D none L R (ix2 p q)).trans (dot_transposedRhs_sum D hD L R p q)

/-- The host's transpose of an `[N, K]` array by `[1, 0]` is the same reading. -/
theorem transpose_eq_tr {N K : ℕ} {α : Type} (W : (⟨2, ![N, K]⟩ : Shape).Idx → α)
    (h : (⟨2, ![N, K]⟩ : Shape).Transposes [1, 0] ⟨2, ![K, N]⟩) :
    transpose ⟨2, ![K, N]⟩ [1, 0] W h = tr W := by
  funext i
  obtain ⟨k, q, rfl⟩ : ∃ (k : Fin K) (q : Fin N), i = ix2 k q := ⟨i 0, i 1, eq_ix2 i⟩
  exact transpose_apply [1, 0] W h (ix2 k q) (ix2 q k) (fun b => match b with
    | ⟨0, _⟩ => rfl
    | ⟨1, _⟩ => rfl)

/-- An entry of `P · W + b` is determined by its row of `P`: if row `j 0` of `P'` is row `i 0` of `P`, the weights
    and the bias agree and the columns `j 1`, `i 1` are the same, the two entries are equal. -/
theorem affine_eq_of_row {M M' K N : ℕ} (P' : (⟨2, ![M', K]⟩ : Shape).Idx → EReal) (W' : (⟨2, ![K, N]⟩ : Shape).Idx → EReal)
    (b' : Fin N → EReal) (P : (⟨2, ![M, K]⟩ : Shape).Idx → EReal) (W : (⟨2, ![K, N]⟩ : Shape).Idx → EReal) (b : Fin N → EReal)
    (j : (⟨2, ![M', N]⟩ : Shape).Idx) (i : (⟨2, ![M, N]⟩ : Shape).Idx)
    (hb : b' = b) (hw : W' = W) (hq : (j 1).val = (i 1).val)
    (hx : ∀ k : Fin K, P' (ix2 (n0 := M') (j 0) k) = P (ix2 (n0 := M) (i 0) k)) :
    affine P' W' b' j = affine P W b i :=
  biased_eq_of_entry (mm P' W') b' (mm P W) b j i hb hq (mm_eq_of_row P' W' P W j i hw hq hx)

/-- The vector unit's spelling of the layer on a block of rows: both operands narrowed (the identity on the extended
    reals), the product contracting both last axes accumulated into zero, the one-row bias broadcast down the rows and
    added — the plain layer with the weights read transposed. -/
theorem unit_affine_transposed {M K N : ℕ} (D : DotDims ⟨2, ![M, K]⟩ ⟨2, ![N, K]⟩ ⟨2, ![M, N]⟩)
    (hD : D = DotDims.transposedRhs M K N)
    (X : FVec Ideal ⟨2, ![M, K]⟩ .f32) (W : FVec Ideal ⟨2, ![N, K]⟩ .f32) (v : FVec Ideal ⟨2, ![1, N]⟩ .f32)
    (h0 : (⟨2, ![M, K]⟩ : Shape).ShapeCasts ⟨2, ![M, K]⟩) (h2 : (⟨2, ![1, N]⟩ : Shape).ShapeCasts ⟨2, ![1, N]⟩)
    (hb : (⟨2, ![1, N]⟩ : Shape).Broadcasts ⟨2, ![M, N]⟩)
    (hx : FTy.bf16.bits < FTy.f32.bits) (hw : FTy.bf16.bits < FTy.f32.bits) :
    addf (matmul D none (truncf .bf16 (shapeCast ⟨2, ![M, K]⟩ X h0) hx) (truncf .bf16 W hw)
        (constant ⟨2, ![M, N]⟩ .f32 0x00000000#32))
      (broadcastTo ⟨2, ![M, N]⟩ (shapeCast ⟨2, ![1, N]⟩ v h2) hb)
      = affine X (tr W) (fun c => v (ix2 (0 : Fin 1) c)) := by
  rw [shapeCast_self, shapeCast_self, matmul_transposedRhs_eq_mm D hD, broadcastTo_eq_rows]
  rfl

end Cert.TransposedLib

end
-- ==== Proof.KernelPayload.lean ====
/-
  What the kernel's body computes on one block: the product of the quantised block of rows with the transposed
  weight block. The body's lane sum, inverse square root, lane maximum, rounding and cut are the vector unit's
  spellings of the row quantiser on a block; its matrix product contracts both operands along their last axis into a
  zero accumulator; the narrowing to the matrix unit's format is the identity on the extended reals.
-/
import proofs.«164483_j84112639525120_1_alg».proof.Proof.Gen.KernelIdeal.Skeleton
import proofs.«164483_j84112639525120_1_alg».proof.Proof.LibRowQuant
import proofs.«164483_j84112639525120_1_alg».proof.Proof.LibTransposed

noncomputable section

namespace Cert.KernelIdeal.KValue

open Cert.KernelIdeal Cert.KernelIdeal.Gen Idealize.ShloMosaic Idealize.ShloMosaic.ValueIdx
open Cert.DenseLib Cert.TransposedLib Cert.RowQuantLib

/-- The body's one store, as a function of its three loaded blocks. -/
theorem pay_eq (x0 : FVec Ideal S256x2048 .f32) (x1 : FVec Ideal S1x2048 .f32) (x2 : FVec Ideal S2048x2048 .bf16) :
    k0_pay1 (F := Ideal) x0 x1 x2 = mm (quantBlk x0 x1) (tr x2) := by
  have h1 := unit_rmsCol x0 reduces_S256x2048_S256 (.inl rfl) rfl shapeCasts_S256_S256x1
  have h2 := unit_normedBlk x0 x1 broadcasts_S256x1_S256x2048 broadcasts_S1x2048_S256x2048
  have h3 := unit_scaleCol x0 x1 reduces_S256x2048_S256 (.inl rfl) rfl shapeCasts_S256_S256x1
  have h4 := unit_quantBlk x0 x1 broadcasts_S256x1_S256x2048
  have h5 := matmul_transposedRhs_eq_mm dot_S256x2048_S2048x2048_S256x2048_1_1_0_0_n_n rfl
    (truncf .bf16 (quantBlk x0 x1 : FVec Ideal S256x2048 .f32) bitsLt_bf16_f32) x2
  unfold k0_pay1
  simp only [shapeCast_self]
  rw [h1, h2, h3, h4]
  exact h5

end Cert.KernelIdeal.KValue

end
-- ==== Proof.KernelFinal.lean ====
/-
  From blocks to the array. Grid point `t` of the kernel reads rows `256 t … 256 t + 255` of the activations, the whole
  row of gains and the whole weight matrix, and writes the same rows of the output. Every output entry is the
  quantised row of its own row of activations against a row of weights, so block `t` of the result is block `t` of ONE
  function of the whole arrays; the 128 blocks tile the output.
-/
import proofs.«164483_j84112639525120_1_alg».proof.Proof.Gen.KernelIdeal.Frame
import proofs.«164483_j84112639525120_1_alg».proof.Proof.KernelPayload
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.SL.Sem Idealize.ShloMosaic.ValueIdx
open Idealize.ShloMosaic.Pipeline (Dat)
open Cert.DenseLib Cert.TransposedLib Cert.RowQuantLib Cert.RowBlocks Cert.BitLinear

variable (m : (ℓ : Loc nD τ sig) → Buf (Elt Ideal) ℓ)

/-- The region's output as one function of the three arrays it finds: the quantised rows against the transposed weights. -/
def out2 (X : S32768x2048.Idx → EReal) (v : S1x2048.Idx → EReal) (Wq : S2048x2048.Idx → EReal) : S32768x2048.Idx → EReal :=
  mm (quantBlk X v) (tr Wq)

theorem hz : (![0, 0] : Fin 2 → Nat) = fun _ => 0 := funext fun a => by fin_cases a <;> rfl

/-- The printed index maps over the grid: the activations' and the output's block index is the point, the gains' and
    the weights' is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `out2` of the arrays the region finds. -/
theorem flushed_eq (c : Dev nD) (t : Fin cfg0.N) :
    (dats m 0 c).flushed 3 t
      = ((cfg0.win 3).blk t).view.read (Elt Ideal) (out2 (V m c main_v12) (V m c main_v13) (V m c main_v11)) := by
  show (cfg0.win 3).cut (grid0.coords t) ((dats m 0 c).after 3 t) = _
  rw [after0_3]
  unfold out0_3
  rw [View.canon_unit_zero hz]
  simp only [View.ld_unit_zero (S := S256x2048) hz, View.ld_unit_zero (S := S1x2048) hz, View.ld_unit_zero (S := S2048x2048) hz]
  rw [pay_eq]
  obtain ⟨e00, e01, e10, e11, e20, e21, e30, e31⟩ := idx_facts t
  funext j
  show mm (quantBlk (iblk m c 0 t) (iblk m c 1 t)) (tr (iblk m c 2 t)) j
    = mm (quantBlk (V m c main_v12) (V m c main_v13)) (tr (V m c main_v11)) (((cfg0.win 3).blk t).view.emb j)
  -- the weights' block is the whole matrix
  have hw : (iblk m c 2 t : S2048x2048.Idx → EReal) = V m c main_v11 := funext fun y => by
    show V m c main_v11 (((cfg0.win 2).blk t).view.emb y) = V m c main_v11 y
    have e : ((cfg0.win 2).blk t).view.emb y = y := by
      funext a; apply Fin.ext
      match a with
      | ⟨0, _⟩ => show win0_2.index t (0 : Fin 2) * 2048 + 1 * (y 0).val = (y 0).val; omega
      | ⟨1, _⟩ => show win0_2.index t (1 : Fin 2) * 2048 + 1 * (y 1).val = (y 1).val; omega
    rw [e]
  -- the gains' block is the whole row
  have hg : gainOf (iblk m c 1 t) = gainOf (V m c main_v13) := funext fun k => by
    show V m c main_v13 (((cfg0.win 1).blk t).view.emb (ix2 (0 : Fin 1) k)) = V m c main_v13 (ix2 (0 : Fin 1) k)
    have e : ((cfg0.win 1).blk t).view.emb (ix2 (0 : Fin 1) k) = ix2 (0 : Fin 1) k := by
      funext a; apply Fin.ext
      match a with
      | ⟨0, _⟩ => show win0_1.index t (0 : Fin 2) * 1 + 1 * 0 = 0; omega
      | ⟨1, _⟩ => show win0_1.index t (1 : Fin 2) * 2048 + 1 * k.val = k.val; omega
    rw [e]
  -- row `j 0` of the activations' block is the row of the array that the output's block puts `j` on
  have hx : rowOf (iblk m c 0 t) (j 0) = rowOf (V m c main_v12) ((((cfg0.win 3).blk t).view.emb j) 0) := funext fun k => by
    show V m c main_v12 (((cfg0.win 0).blk t).view.emb (ix2 (j 0) k)) = V m c main_v12 (ix2 ((((cfg0.win 3).blk t).view.emb j) 0) k)
    have e : ((cfg0.win 0).blk t).view.emb (ix2 (j 0) k) = ix2 ((((cfg0.win 3).blk t).view.emb j) 0) k := by
      funext a; apply Fin.ext
      match a with
      | ⟨0, _⟩ => show win0_0.index t (0 : Fin 2) * 256 + 1 * (j 0).val = win0_3.index t (0 : Fin 2) * 256 + 1 * (j 0).val; omega
      | ⟨1, _⟩ => show win0_0.index t (1 : Fin 2) * 2048 + 1 * k.val = k.val; omega
    exact congrArg (V m c main_v12) e
  refine mm_eq_of_row _ _ _ _ j _ (congrArg tr hw) ?_ fun k => ?_
  · show (j 1).val = win0_3.index t (1 : Fin 2) * 2048 + 1 * (j 1).val
    omega
  · show quant (gainOf (iblk m c 1 t)) (rowOf (iblk m c 0 t) (j 0)) k
      = quant (gainOf (V m c main_v13)) (rowOf (V m c main_v12) ((((cfg0.win 3).blk t).view.emb j) 0)) k
    rw [hg, hx]

/-- An index of the output is in point `t`'s block iff each coordinate is in the block's range on its axis. -/
theorem mem_blk (t : Fin cfg0.N) (i : S32768x2048.Idx) :
    i ∈ ((cfg0.win 3).blk t).view.set ↔ ∀ a : Fin 2, win0_3.index t a * S256x2048.size a ≤ (i a).val
      ∧ (i a).val < win0_3.index t a * S256x2048.size a + S256x2048.size a := by
  show i ∈ ((View.whole main_v14).slice (win0_3.rect t)).set ↔ _
  rw [View.set_slice_whole, Rect.mem_set_unit]
  exact Iff.rfl

/-- Every row of the output is in the block of the point `row / 256`. -/
theorem cover (i : S32768x2048.Idx) : ∃ t : Fin cfg0.N, (cfg0.win 3).flush t = true ∧ i ∈ ((cfg0.win 3).blk t).view.set := by
  have hN : grid0.N = 128 := N_0
  have hi0 : (i 0).val < 32768 := (i 0).isLt
  have hi1 : (i 1).val < 2048 := (i 1).isLt
  let t : Fin cfg0.N := ⟨(i 0).val / 256, by show (i 0).val / 256 < grid0.N; omega⟩
  obtain ⟨-, -, -, -, -, -, e30, e31⟩ := idx_facts t
  have ht : t.val = (i 0).val / 256 := rfl
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 2048 ≤ (i 1).val ∧ (i 1).val < win0_3.index t (1 : Fin 2) * 2048 + 2048; omega

/-- The output array after the region: `out2` of the arrays the region finds. -/
theorem final (c : Dev nD) : (dats m 0 c).arrAt 3 cfg0.N = out2 (V m c main_v12) (V m c main_v13) (V m c main_v11) :=
  (dats m 0 c).arrAt_eq_of_cover 3 _ (fun t _ => flushed_eq m c t) cover

end Cert.KernelIdeal.KValue

end
-- ==== Proof.WeightQuant.lean ====
/-
  The per-tensor ternary weight quantiser of a 1.58-bit linear layer, as ONE host term of the weight matrix:
  the scale is one over (the mean magnitude of all entries plus epsilon); each entry is put on that scale, rounded to
  even, cut to `[-1, 1]` and scaled back. Both programs compute it by the same host operations, so it is named once
  here and never opened.
-/
import Idealize.ShloMosaic.PureOps.Ideal

noncomputable section

namespace Cert.BitLinear

open Idealize.ShloMosaic

/-- The quantised weights, in the host's own operations. -/
def wquant (hb : (⟨0, ![]⟩ : Shape).BroadcastsInDim ⟨2, ![2048, 2048]⟩ (![] : Fin 0 → Fin 2))
    (hr : (⟨2, ![2048, 2048]⟩ : Shape).ReducesTo [0, 1] ⟨0, ![]⟩) (hu : 0 < (⟨0, ![]⟩ : Shape).numel)
    (W : FVec Ideal ⟨2, ![2048, 2048]⟩ .f32) : FVec Ideal ⟨2, ![2048, 2048]⟩ .f32 :=
  Host.divf
    (minimumf (broadcastInDim ⟨2, ![2048, 2048]⟩ ![] hb (id (constant (F := Ideal) ⟨0, ![]⟩ .f32 0x3F800000#32)))
      (maximumf (broadcastInDim ⟨2, ![2048, 2048]⟩ ![] hb (id (constant (F := Ideal) ⟨0, ![]⟩ .f32 0xBF800000#32)))
        (Host.roundeven (mulf W (broadcastInDim ⟨2, ![2048, 2048]⟩ ![] hb
          (Host.divf (constant (F := Ideal) ⟨0, ![]⟩ .f32 0x3F800000#32)
            (addf (Host.divf (Host.reduceAdd (Host.absf W) (constant (F := Ideal) ⟨0, ![]⟩ .f32 0x00000000#32) hr hu)
                (constant (F := Ideal) ⟨0, ![]⟩ .f32 0x4A800000#32))
              (constant (F := Ideal) ⟨0, ![]⟩ .f32 0x3727C5AC#32))))))))
    (broadcastInDim ⟨2, ![2048, 2048]⟩ ![] hb
      (Host.divf (constant (F := Ideal) ⟨0, ![]⟩ .f32 0x3F800000#32)
        (addf (Host.divf (Host.reduceAdd (Host.absf W) (constant (F := Ideal) ⟨0, ![]⟩ .f32 0x00000000#32) hr hu)
            (constant (F := Ideal) ⟨0, ![]⟩ .f32 0x4A800000#32))
          (constant (F := Ideal) ⟨0, ![]⟩ .f32 0x3727C5AC#32))))

end Cert.BitLinear

end
-- ==== Proof.KernelArrays.lean ====
/-
  The arrays the kernel's region finds: the host lines before it recast the activations to `[32768, 2048]` and the
  gains to one row `[1, 2048]`, and quantise the weights (the shared quantiser's term, then narrowed — the identity on
  the extended reals).
-/
import proofs.«164483_j84112639525120_1_alg».proof.Proof.Gen.KernelIdeal.Frame
import proofs.«164483_j84112639525120_1_alg».proof.Proof.WeightQuant
import Idealize.ShloMosaic.Lib.StableHlo.Run

noncomputable section

namespace Cert.KernelIdeal.KValue

open Cert.KernelIdeal Cert.KernelIdeal.Gen Idealize.ShloMosaic Idealize.ShloMosaic.TcCoe Idealize.SL.Sem Idealize.ShloMosaic.StableHlo
open Cert.BitLinear

variable (m : (ℓ : Loc nD τ sig) → Buf (Elt Ideal) ℓ)

/-- The activations as the region finds them: the argument recast to two axes. -/
theorem V_x (c : Dev nD) : (V m c main_v12 : S32768x2048.Idx → EReal)
    = shapeCast S32768x2048 (m ((c : Thread nD τ).loc main_arg0)) shapeCasts_S4x8192x2048_S32768x2048 := by
  dsimp only [V, V0]
  simp only [hostOps0, hostOps0_1, hostOps0_2, hostOps0_3, hostOps0_4, List.flatten_cons, List.flatten_nil, List.append_nil,
    List.cons_append, List.nil_append]
  after_results
  rfl

/-- The gains as the region finds them: the argument recast to one row. -/
theorem V_g (c : Dev nD) : (V m c main_v13 : S1x2048.Idx → EReal)
    = shapeCast S1x2048 (m ((c : Thread nD τ).loc main_arg1)) shapeCasts_S2048_S1x2048 := by
  dsimp only [V, V0]
  simp only [hostOps0, hostOps0_1, hostOps0_2, hostOps0_3, hostOps0_4, List.flatten_cons, List.flatten_nil, List.append_nil,
    List.cons_append, List.nil_append]
  after_results
  rfl

/-- The weights as the region finds them: the shared quantiser's term of the argument. -/
theorem V_w (c : Dev nD) : (V m c main_v11 : S2048x2048.Idx → EReal)
    = wquant bcast_S_S2048x2048 reducesTo_S2048x2048_S_d0_1 h_S_ (m ((c : Thread nD τ).loc main_arg2)) := by
  dsimp only [V, V0]
  simp only [hostOps0, hostOps0_1, hostOps0_2, hostOps0_3, hostOps0_4, List.flatten_cons, List.flatten_nil, List.append_nil,
    List.cons_append, List.nil_append]
  after_results
  rfl

end Cert.KernelIdeal.KValue

end
-- ==== Proof.Layer.lean ====
/-
  The layer on the whole arrays: activations `[4, 8192, 2048]`, gains `[2048]`, quantised weights `[2048, 2048]` with one
  row per output feature. Entry `(b, s, o)` is row `(b, s)` of the activations, quantised, against row `o` of the weights.
-/
import proofs.«164483_j84112639525120_1_alg».proof.Proof.QuantSpec
import Idealize.ShloMosaic.Lib.ValueIdx

noncomputable section

namespace Cert.BitLinear

open Idealize.ShloMosaic Idealize.ShloMosaic.ValueIdx

/-- The layer's result as one function of its three arrays. -/
def layer (x : (⟨3, ![4, 8192, 2048]⟩ : Shape).Idx → EReal) (g : (⟨1, ![2048]⟩ : Shape).Idx → EReal)
    (Wq : (⟨2, ![2048, 2048]⟩ : Shape).Idx → EReal) : (⟨3, ![4, 8192, 2048]⟩ : Shape).Idx → EReal :=
  fun i => rowOut (fun k => g (ix1 k)) (fun o k => Wq (ix2 o k)) (fun k => x (ix3 (i 0) (i 1) k)) (i 2)

end Cert.BitLinear

end
-- ==== Proof.LibFlatten.lean ====
/-
  General lemmas: a rank-three array `[a, b, c]` recast to `[N, c]` with its two leading axes merged, and back, read at an
  index: row `p · b + s` of the merged array is row `(p, s)` of the rank-three one. None mentions a program.
-/
import Idealize.ShloMosaic.Lib.ValueIdx
import Idealize.ShloMosaic.Lib.Pipeline.Value

noncomputable section

namespace Cert.FlattenLib

open Idealize.ShloMosaic Idealize.ShloMosaic.ValueIdx

variable {α : Type}

/-- Merging the leading axes: the recast array at `(r, k)`, `r = p · b + s`, is the array at `(p, s, k)`. -/
theorem shapeCast_merge_apply {a b c N : ℕ} (x : (⟨3, ![a, b, c]⟩ : Shape).Idx → α)
    (h : (⟨3, ![a, b, c]⟩ : Shape).ShapeCasts ⟨2, ![N, c]⟩) (p : Fin a) (s : Fin b) (k : Fin c) (r : Fin N)
    (hr : r.val = p.val * b + s.val) : shapeCast ⟨2, ![N, c]⟩ x h (ix2 r k) = x (ix3 p s k) :=
  shapeCast_apply x h _ _ (by
    rw [Shape.rowMajor_val_three, Shape.rowMajor_val_two]
    show (p.val * b + s.val) * c + k.val = r.val * c + k.val
    rw [hr])

/-- Splitting the leading axis: the recast array at `(p, s, k)` is the array at `(r, k)`, `r = p · b + s`. -/
theorem shapeCast_split_apply {a b c N : ℕ} (y : (⟨2, ![N, c]⟩ : Shape).Idx → α)
    (h : (⟨2, ![N, c]⟩ : Shape).ShapeCasts ⟨3, ![a, b, c]⟩) (p : Fin a) (s : Fin b) (k : Fin c) (r : Fin N)
    (hr : r.val = p.val * b + s.val) : shapeCast ⟨3, ![a, b, c]⟩ y h (ix3 p s k) = y (ix2 r k) :=
  shapeCast_apply y h _ _ (by
    rw [Shape.rowMajor_val_two, Shape.rowMajor_val_three]
    show r.val * c + k.val = (p.val * b + s.val) * c + k.val
    rw [hr])

end Cert.FlattenLib

end
-- ==== Proof.KernelRun.lean ====
/-
  The kernel's run, read. After the region the host recasts the `[32768, 2048]` output to `[4, 8192, 2048]`; with the
  activations recast the other way before the region, row `8192 b + s` of the region's arrays is row `(b, s)` of the
  arguments, and the recast gains are the gains: the result is the layer of the arguments with the quantised weights.
-/
import proofs.«164483_j84112639525120_1_alg».proof.Proof.KernelFinal
import proofs.«164483_j84112639525120_1_alg».proof.Proof.KernelArrays
import proofs.«164483_j84112639525120_1_alg».proof.Proof.Layer
import proofs.«164483_j84112639525120_1_alg».proof.Proof.LibFlatten
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem Idealize.ShloMosaic.ValueIdx
open Idealize.ShloMosaic.StableHlo
open Cert.DenseLib Cert.TransposedLib Cert.RowQuantLib Cert.RowBlocks Cert.BitLinear Cert.FlattenLib

/-- The recast of the region's output function of the recast arguments is the layer of the arguments. -/
theorem recast_eq (x : FVec Ideal S4x8192x2048 .f32) (g : FVec Ideal S2048 .f32) (Wq : S2048x2048.Idx → EReal) :
    shapeCast S4x8192x2048 (out2 (shapeCast S32768x2048 x shapeCasts_S4x8192x2048_S32768x2048)
        (shapeCast S1x2048 g shapeCasts_S2048_S1x2048) Wq) shapeCasts_S32768x2048_S4x8192x2048
      = layer x g Wq := by
  funext i
  obtain ⟨b, s, o, rfl⟩ : ∃ (b : Fin 4) (s : Fin 8192) (o : Fin 2048), i = ix3 b s o := ⟨i 0, i 1, i 2, eq_ix3 i⟩
  have hb := b.isLt
  have hs := s.isLt
  have hg : gainOf (shapeCast S1x2048 g shapeCasts_S2048_S1x2048) = fun k => g (ix1 k) :=
    funext fun k => shapeCast_vecRow_apply g shapeCasts_S2048_S1x2048 (0 : Fin 1) k
  have hx : rowOf (shapeCast S32768x2048 x shapeCasts_S4x8192x2048_S32768x2048) (⟨b.val * 8192 + s.val, by omega⟩ : Fin 32768)
      = fun k => x (ix3 b s k) :=
    funext fun k => shapeCast_merge_apply x shapeCasts_S4x8192x2048_S32768x2048 b s k _ rfl
  rw [shapeCast_split_apply _ shapeCasts_S32768x2048_S4x8192x2048 b s o (⟨b.val * 8192 + s.val, by omega⟩ : Fin 32768) rfl]
  show ∑ k : Fin 2048, quant (gainOf (shapeCast S1x2048 g shapeCasts_S2048_S1x2048))
        (rowOf (shapeCast S32768x2048 x shapeCasts_S4x8192x2048_S32768x2048) (⟨b.val * 8192 + s.val, by omega⟩ : Fin 32768)) k * Wq (ix2 o k)
      = ∑ k : Fin 2048, quant (fun k => g (ix1 k)) (fun k => x (ix3 b s k)) k * Wq (ix2 o k)
  rw [hg, hx]

variable (m : (ℓ : Loc nD τ sig) → Buf (Elt Ideal) ℓ) (ρ : Dev nD → PrngReg)

/-- What the host's last line leaves in the result: the recast of the region's output array. -/
theorem tail_eq (c : Dev nD) : Pipeline.afterTail₀ cfgs (dats m) 0 (V0 m) [hostOps1] c main_v15
    = shapeCast S4x8192x2048 (out2 (V m c main_v12) (V m c main_v13) (V m c main_v11)) shapeCasts_S32768x2048_S4x8192x2048 := by
  unfold Pipeline.afterTail₀
  show StableHlo.after hostOps1 _ (Proc.devRef .tc main_v15) = _
  after_results
  exact congrArg (fun a => shapeCast S4x8192x2048 a shapeCasts_S32768x2048_S4x8192x2048)
    ((Pipeline.withArrays_arr spec0 launch0.win.arr_inj c _ _ 3).trans (final m c))

/-- The result is the layer of the arguments with the quantised weights. -/
theorem result_eq (c : Dev nD) : Pipeline.afterTail₀ cfgs (dats m) 0 (V0 m) [hostOps1] c main_v15
    = layer (m ((c.tc : Thread nD τ).loc main_arg0)) (m ((c.tc : Thread nD τ).loc main_arg1))
        (wquant bcast_S_S2048x2048 reducesTo_S2048x2048_S_d0_1 h_S_ (m ((c.tc : Thread nD τ).loc main_arg2))) := by
  rw [tail_eq, V_x, V_g, V_w]
  exact recast_eq _ _ _

/-- Every weakly fair execution of the kernel's program terminates with its result at the layer of the arguments and the
    arguments unchanged. -/
theorem run : θ_run defs (onTc (τ := τ) (main (F := Ideal))) ⟨m, fun _ => 0, ρ⟩ fun r => ∀ c : Dev nD,
      r.2.mem ((c.tc : Thread nD τ).loc main_v15)
        = layer (m ((c.tc : Thread nD τ).loc main_arg0)) (m ((c.tc : Thread nD τ).loc main_arg1))
            (wquant bcast_S_S2048x2048 reducesTo_S2048x2048_S_d0_1 h_S_ (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v15 (Pipeline.mem_restRefs_of main_v15 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.RefQuant.lean ====
/-
  The reference program at an index. Row `(b, s)` of its activations goes through the row quantiser of QuantSpec:
  its normalised entries, its scale, its quantised entries, read off the program's stages one at a time; the program
  then adds to each normalised entry the difference between the quantised and the normalised one, which over real
  inputs is the quantised entry, and does the same with the weights; its result at `(b, s, o)` is the quantised row
  against row `o` of the quantised weights.
-/
import proofs.«164483_j84112639525120_1_alg».proof.Proof.Gen.ReferenceIdeal.Read
import proofs.«164483_j84112639525120_1_alg».proof.Proof.QuantSpec
import proofs.«164483_j84112639525120_1_alg».proof.Proof.WeightQuant
import proofs.«164483_j84112639525120_1_alg».proof.Proof.Layer
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.BitLinear

/-! ## The stages' index functions on coordinates -/

theorem idx_v1 (b : Fin 4) (s : Fin 8192) (k : Fin 2048) : idx_main_v1 (ix2 b s) k = ix3 b s k :=
  funext fun a => Fin.ext (by match a with | ⟨0, _⟩ => rfl | ⟨1, _⟩ => rfl | ⟨2, _⟩ => rfl)
theorem idx_v2 (b : Fin 4) (s : Fin 8192) (u : Fin 1) : idx_main_v2 (ix3 b s u) = ix2 b s :=
  funext fun a => Fin.ext (by match a with | ⟨0, _⟩ => rfl | ⟨1, _⟩ => rfl)
theorem idx_v8 (b : Fin 4) (s : Fin 8192) (k : Fin 2048) : idx_main_v8 (ix3 b s k) = ix3 b s (0 : Fin 1) :=
  funext fun a => Fin.ext (by match a with | ⟨0, _⟩ => rfl | ⟨1, _⟩ => rfl | ⟨2, _⟩ => rfl)
theorem idx_v10 (u u' : Fin 1) (k : Fin 2048) : idx_main_v10 (ix3 u u' k) = ix1 k :=
  funext fun a => Fin.ext (by match a with | ⟨0, _⟩ => rfl)
theorem idx_v11 (b : Fin 4) (s : Fin 8192) (k : Fin 2048) : idx_main_v11 (ix3 b s k) = ix3 (0 : Fin 1) (0 : Fin 1) k :=
  funext fun a => Fin.ext (by match a with | ⟨0, _⟩ => rfl | ⟨1, _⟩ => rfl | ⟨2, _⟩ => rfl)
theorem idx_v15 (b : Fin 4) (s : Fin 8192) (u : Fin 1) : idx_main_v15 (ix3 b s u) = ix2 b s :=
  funext fun a => Fin.ext (by match a with | ⟨0, _⟩ => rfl | ⟨1, _⟩ => rfl)
theorem idx_v20 (b : Fin 4) (s : Fin 8192) (k : Fin 2048) : idx_main_v20 (ix3 b s k) = ix3 b s (0 : Fin 1) :=
  funext fun a => Fin.ext (by match a with | ⟨0, _⟩ => rfl | ⟨1, _⟩ => rfl | ⟨2, _⟩ => rfl)
theorem idx_v24 (b : Fin 4) (s : Fin 8192) (k : Fin 2048) : idx_main_v24 (ix3 b s k) = ix3 b s (0 : Fin 1) :=
  funext fun a => Fin.ext (by match a with | ⟨0, _⟩ => rfl | ⟨1, _⟩ => rfl | ⟨2, _⟩ => rfl)
theorem lidx_v41 (b : Fin 4) (s : Fin 8192) (o k : Fin 2048) : lidx_main_v41 (ix3 b s o) k = ix3 b s k :=
  funext fun a => Fin.ext (by match a with | ⟨0, _⟩ => rfl | ⟨1, _⟩ => rfl | ⟨2, _⟩ => rfl)
theorem ridx_v41 (b : Fin 4) (s : Fin 8192) (o k : Fin 2048) : ridx_main_v41 (ix3 b s o) k = ix2 o k :=
  funext fun a => Fin.ext (by match a with | ⟨0, _⟩ => rfl | ⟨1, _⟩ => rfl)

/-- The index over `(b, s)` with coordinate `k` on the reduced last axis is `(b, s, k)`. -/
theorem lift_last (h : S4x8192x2048.Reduces [(2 : Fin 3)] S4x8192) (b : Fin 4) (s : Fin 8192) (k : Fin 2048) :
    h.lift (ix2 b s) k = ix3 b s k :=
  funext fun a => Fin.ext (by match a with | ⟨0, _⟩ => rfl | ⟨1, _⟩ => rfl | ⟨2, _⟩ => rfl)

variable (x : (⟨S4x8192x2048, .f32⟩ : BufTy).Contents (Elt Ideal)) (g : (⟨S2048, .f32⟩ : BufTy).Contents (Elt Ideal))

/-! ## The activations, stage by stage -/

/-- The inverse root-mean-square stage at `(b, s)` is that of row `(b, s)`. -/
theorem rms_apply (b : Fin 4) (s : Fin 8192) (u : Fin 1) :
    val_main_v7 (F := Ideal) x (ix3 b s u) = invRms fun k => x (ix3 b s k) := by
  rw [val_main_v7_apply, val_main_v6_apply, val_main_v4_apply, val_main_v5_apply, val_main_v3_apply, val_main_v2_apply, idx_v2,
    val_main_v1_apply]
  simp only [idx_v1, val_main_v0_apply, val_main_cst_apply, val_main_cst_0_apply, val_main_cst_1_apply, Ideal.hostUnary_rsqrt_def,
    Ideal.addf_def, Ideal.hostDivf_def, Ideal.mulf_def, Ideal.ofBits_def, Ideal.ofBits_zero_f32, zero_add]
  rfl

/-- The normalised stage at `(b, s, k)`. -/
theorem normed_apply (b : Fin 4) (s : Fin 8192) (k : Fin 2048) :
    val_main_v12 (F := Ideal) x g (ix3 b s k) = normed (fun k => g (ix1 k)) (fun k => x (ix3 b s k)) k := by
  rw [val_main_v12_apply, val_main_v9_apply, val_main_v8_apply, idx_v8, rms_apply, val_main_v11_apply, idx_v11, val_main_v10_apply,
    idx_v10]
  rfl

/-- The largest-magnitude stage at `(b, s)`: the host's reduce by maximum from `-∞` is the fold over the row. -/
theorem absMax_apply (b : Fin 4) (s : Fin 8192) :
    val_main_v14 (F := Ideal) x g (ix2 b s) = absMax (fun k => g (ix1 k)) (fun k => x (ix3 b s k)) := by
  have hR : S4x8192x2048.Reduces [(2 : Fin 3)] S4x8192 := by decide
  unfold val_main_v14
  rw [Host.reduce_eq_fold_single FloatOps.maximumf _ _ reducesTo_S4x8192x2048_S4x8192_d2 hR h_S_]
  unfold absMax
  have e : (val_main_v13 (F := Ideal) x g ∘ hR.lift (ix2 b s))
      = fun k : Fin 2048 => max (normed (fun k => g (ix1 k)) (fun k => x (ix3 b s k)) k) (-normed (fun k => g (ix1 k)) (fun k => x (ix3 b s k)) k) :=
    by
      show (fun k : Fin 2048 => val_main_v13 (F := Ideal) x g (hR.lift (ix2 b s) k)) = _
      funext k
      rw [lift_last hR b s k, val_main_v13_apply, normed_apply]
      rfl
  rw [e]
  rfl

/-- The scale stage at `(b, s)`. -/
theorem scale_apply (b : Fin 4) (s : Fin 8192) (u : Fin 1) :
    val_main_v19 (F := Ideal) x g (ix3 b s u) = scale (fun k => g (ix1 k)) (fun k => x (ix3 b s k)) := by
  rw [val_main_v19_apply, val_main_v18_apply, val_main_v17_apply, val_main_v16_apply, val_main_v15_apply, idx_v15, absMax_apply]
  rfl

/-- The quantised stage at `(b, s, k)`. -/
theorem quant_apply (b : Fin 4) (s : Fin 8192) (k : Fin 2048) :
    val_main_v25 (F := Ideal) x g (ix3 b s k) = quant (fun k => g (ix1 k)) (fun k => x (ix3 b s k)) k := by
  rw [val_main_v25_apply, val_main_v24_apply, idx_v24, scale_apply, val_main_v23_apply, val_main_call1_v4_apply, val_main_call1_v3_apply,
    val_main_cst_6_apply, val_main_call1_v2_apply, val_main_call1_v1_apply, val_main_call1_v0_apply, val_main_cst_5_apply,
    val_main_v22_apply, val_main_v21_apply, normed_apply, val_main_v20_apply, idx_v20, scale_apply]
  rfl

/-- The straight-through stage: over real inputs the normalised entry is a real number, so adding to it the
    difference to the quantised entry gives the quantised entry. -/
theorem ste_apply (hx : ∀ i, ∃ y : ℝ, x i = (y : EReal)) (hg : ∀ i, ∃ y : ℝ, g i = (y : EReal))
    (b : Fin 4) (s : Fin 8192) (k : Fin 2048) :
    val_main_v27 (F := Ideal) x g (ix3 b s k) = quant (fun k => g (ix1 k)) (fun k => x (ix3 b s k)) k := by
  rw [val_main_v27_apply, val_main_v26_apply, quant_apply, normed_apply]
  obtain ⟨y, hy⟩ := normed_real_of (fun k => g (ix1 k)) (fun k => x (ix3 b s k)) (fun k => hg _) (fun k => hx _) k
  rw [hy]
  exact add_sub_self_of_real y _

/-! ## The weights -/

variable (W : (⟨S2048x2048, .f32⟩ : BufTy).Contents (Elt Ideal))

/-- The weights' quantised stage is the shared quantiser's term. -/
theorem wq_eq : val_main_v38 (F := Ideal) W = wquant bcast_S_S2048x2048 reducesTo_S2048x2048_S_d0_1 h_S_ W := rfl

/-- The weights' straight-through stage over real weights is the quantised stage. -/
theorem wste_apply (hW : ∀ i, ∃ y : ℝ, W i = (y : EReal)) (i : S2048x2048.Idx) :
    val_main_v40 (F := Ideal) W i = wquant bcast_S_S2048x2048 reducesTo_S2048x2048_S_d0_1 h_S_ W i := by
  rw [val_main_v40_apply, val_main_v39_apply, wq_eq]
  obtain ⟨y, hy⟩ := hW i
  rw [hy]
  exact add_sub_self_of_real y _

/-! ## The result -/

/-- The reference's result over real inputs is the layer of the arguments with the shared quantiser's weights. -/
theorem result_eq (hx : ∀ i, ∃ y : ℝ, x i = (y : EReal)) (hg : ∀ i, ∃ y : ℝ, g i = (y : EReal)) (hW : ∀ i, ∃ y : ℝ, W i = (y : EReal)) :
    val_main_v41 (F := Ideal) x g W = layer x g (wquant bcast_S_S2048x2048 reducesTo_S2048x2048_S_d0_1 h_S_ W) := by
  funext i
  obtain ⟨b, s, o, rfl⟩ : ∃ (b : Fin 4) (s : Fin 8192) (o : Fin 2048), i = ix3 b s o := ⟨i 0, i 1, i 2, eq_ix3 i⟩
  rw [val_main_v41_apply]
  show _ = ∑ k : Fin 2048, quant (fun k => g (ix1 k)) (fun k => x (ix3 b s k)) k * wquant bcast_S_S2048x2048 reducesTo_S2048x2048_S_d0_1 h_S_ W (ix2 o k)
  refine Finset.sum_congr rfl fun k _ => ?_
  rw [lidx_v41, ridx_v41, ste_apply x g hx hg, wste_apply W hW]

end Cert.ReferenceIdeal.RefValue

end
-- ==== Proof.Finite.lean ====
/-
  From the precondition to real numbers. The precondition says, of each float argument, that the magnitude of every
  entry is below `+∞` (an `and` over all entries, the three results joined by `and`). On the extended reals an
  entry whose magnitude is below `+∞` is neither infinity, so it is a real number.
-/
import proofs.«164483_j84112639525120_1_alg».proof.Pre_finite_inputs
import proofs.«164483_j84112639525120_1_alg».proof.Proof.LibIndex
import Idealize.ShloMosaic.Lib.ReduceAll
import Idealize.ShloMosaic.PureOps.Ideal.Laws

noncomputable section

namespace Cert.Pre_finite_inputs.Finite

open Idealize.ShloMosaic Idealize.ShloMosaic.ValueIdx Cert.Pre_finite_inputs

instance : Subsingleton S_.Idx := ⟨fun a b => funext fun d => d.elim0⟩

/-- The word of the comparison's bound denotes `+∞`. -/
theorem ofBits_inf : Ideal.ofBits .f32 0x7F800000#32 = ⊤ := by simp [Ideal.ofBits, Ideal.ieee]

/-- An extended real whose magnitude compares below `+∞` is a real number. -/
theorem real_of_lt_inf (x : EReal) (h : Ideal.cmp .olt (max x (-x)) (Ideal.ofBits .f32 0x7F800000#32) = 1#1) :
    ∃ y : ℝ, x = (y : EReal) := by
  rw [ofBits_inf] at h
  induction x using EReal.rec with
  | bot => exact absurd h (by simp [Ideal.cmp])
  | top => exact absurd h (by simp [Ideal.cmp])
  | coe y => exact ⟨y, rfl⟩

/-- One entry of the comparison array being 1 makes that entry of the operand a real number. -/
theorem real_of_entry {s : Shape} (hb : (⟨0, ![]⟩ : Shape).BroadcastsInDim s (![] : Fin 0 → Fin s.rank)) (x : FVec Ideal s .f32) (i : s.Idx)
    (h : cmpf .olt (Host.absf x) (broadcastInDim s ![] hb (constant (F := Ideal) ⟨0, ![]⟩ .f32 0x7F800000#32)) i = 1#1) :
    ∃ y : ℝ, x i = (y : EReal) := by
  have h' : Ideal.cmp .olt (max (x i) (-(x i))) (broadcastInDim s ![] hb (constant (F := Ideal) ⟨0, ![]⟩ .f32 0x7F800000#32) i) = 1#1 := h
  rw [Cert.LayoutLib.broadcastInDim_scalar_apply] at h'
  exact real_of_lt_inf _ h'

variable [Cert.Pre_finite_inputs.Facts]
open Cert.Pre_finite_inputs.Facts

/-- Under the precondition every entry of every argument is a real number. -/
theorem reals_of_pre (x0 : FVec Ideal S4x8192x2048 .f32) (x1 : FVec Ideal S2048 .f32) (x2 : FVec Ideal S2048x2048 .f32)
    (h : fn (F := Ideal) x0 x1 x2 = fun _ => 1#1) :
    (∀ i, ∃ y : ℝ, x0 i = (y : EReal)) ∧ (∀ i, ∃ y : ℝ, x1 i = (y : EReal)) ∧ (∀ i, ∃ y : ℝ, x2 i = (y : EReal)) := by
  have h0 := congrFun h ix0
  dsimp only [fn] at h0
  obtain ⟨h01, h2⟩ := IntOp.andi_eq_one.1 h0
  obtain ⟨ha, hb⟩ := IntOp.andi_eq_one.1 h01
  exact ⟨fun i => real_of_entry _ x0 i (Host.reduce_andi_all _ _ _ _ _ ha i),
    fun i => real_of_entry _ x1 i (Host.reduce_andi_all _ _ _ _ _ hb i),
    fun i => real_of_entry _ x2 i (Host.reduce_andi_all _ _ _ _ _ h2 i)⟩

end Cert.Pre_finite_inputs.Finite

end
-- ==== Proof.lean ====
/-
  A 1.58-bit linear layer: each row of the activations `x : [4, 8192, 2048]` is scaled by its inverse root-mean-square and
  the gains, quantised to eight bits on its own scale `127 / (largest magnitude + ε)`, and multiplied against the weight
  matrix quantised to `{-1, 0, 1}` on the scale `1 / (mean magnitude + ε)`.

  The kernel quantises the weights on the host, recasts the activations to `[32768, 2048]`, and on each of 128 blocks of
  256 rows computes the quantised rows and their product with the transposed weights; the host recasts the result to
  `[4, 8192, 2048]`. The reference does the same arithmetic on the whole arrays, except that it spells each quantised value
  `q` of a value `a` as `a + (q - a)`. On the extended reals that is `q` whenever `a` is a real number; the precondition
  makes every input entry a real number, the normalised activations are then real numbers too (the mean of squares plus
  a positive epsilon is positive), and the weights are inputs. So both programs end at ONE function of the arguments,
  `Cert.BitLinear.layer`, with the weights' quantiser the same host term on both sides.

  The three frames: the kernel's two are the generated frame certificates; the reference's is its generated run with
  the result dropped. The idealisation rewrote nothing, so `preserves` is trivial.
-/
import proofs.«164483_j84112639525120_1_alg».proof.Defs
import proofs.«164483_j84112639525120_1_alg».proof.Proof.Gen.Kernel
import proofs.«164483_j84112639525120_1_alg».proof.Proof.Gen.Kernel.Skeleton
import proofs.«164483_j84112639525120_1_alg».proof.Proof.Gen.Kernel.Launch
import proofs.«164483_j84112639525120_1_alg».proof.Proof.Gen.Kernel.Points
import proofs.«164483_j84112639525120_1_alg».proof.Proof.Gen.Kernel.Frame
import proofs.«164483_j84112639525120_1_alg».proof.Proof.Gen.KernelIdeal
import proofs.«164483_j84112639525120_1_alg».proof.Proof.Gen.KernelIdeal.Skeleton
import proofs.«164483_j84112639525120_1_alg».proof.Proof.Gen.KernelIdeal.Launch
import proofs.«164483_j84112639525120_1_alg».proof.Proof.Gen.KernelIdeal.Points
import proofs.«164483_j84112639525120_1_alg».proof.Proof.Gen.KernelIdeal.Frame
import proofs.«164483_j84112639525120_1_alg».proof.Proof.Gen.ReferenceIdeal
import proofs.«164483_j84112639525120_1_alg».proof.Proof.Gen.Pre_finite_inputs
import proofs.«164483_j84112639525120_1_alg».proof.Proof.Gen.ReferenceIdeal.Run
import proofs.«164483_j84112639525120_1_alg».proof.Proof.Gen.ReferenceIdeal.Read
import proofs.«164483_j84112639525120_1_alg».proof.Proof.KernelRun
import proofs.«164483_j84112639525120_1_alg».proof.Proof.RefQuant
import proofs.«164483_j84112639525120_1_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the layer of the arguments: the kernel by its run read block by block, the reference by its
    stages read at an index and the straight-through law over real inputs. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hg, hW⟩ := Cert.Pre_finite_inputs.Finite.reals_of_pre _ _ _ (hpre c)
  rw [Cert.ReferenceIdeal.Read.val_main_v41_eq, (hagree c).1, (hagree c).2.1, (hagree c).2.2]
  exact Cert.ReferenceIdeal.RefValue.result_eq _ _ _ hx hg hW

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
